-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x64 : Shape := ⟨2, ![1, 64]⟩
abbrev S2000x64 : Shape := ⟨2, ![2000, 64]⟩

abbrev nBuf : Space → Nat
  | .hbm => 148
  | .vmem => 18
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S800000, .f32⟩
  | 55 => ⟨S_, .f32⟩
  | 56 => ⟨S50000x64, .f32⟩
  | 57 => ⟨S800000x1, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S800000x64, .f32⟩
  | 68 => ⟨S800000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S50000x64, .f32⟩
  | 78 => ⟨S1x64, .f32⟩
  | 79 => ⟨S50000x64, .f32⟩
  | 80 => ⟨S_, .f32⟩
  | 81 => ⟨S800000, .f32⟩
  | 82 => ⟨S_, .f32⟩
  | 83 => ⟨S50000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S50000, .f32⟩
  | 93 => ⟨S_, .f32⟩
  | 94 => ⟨S50000, .f32⟩
  | 95 => ⟨S50000, .i1⟩
  | 96 => ⟨S_, .f32⟩
  | 97 => ⟨S50000, .f32⟩
  | 98 => ⟨S50000, .f32⟩
  | 99 => ⟨S_, .f32⟩
  | 100 => ⟨S_, .f32⟩
  | 101 => ⟨S50000, .f32⟩
  | 102 => ⟨S50000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000, .f32⟩
  | 121 => ⟨S800000, .f32⟩
  | 122 => ⟨S800000, .f32⟩
  | 123 => ⟨S_, .f32⟩
  | 124 => ⟨S50000x64, .f32⟩
  | 125 => ⟨S800000x1, .f32⟩
  | 126 => ⟨S_, .i32⟩
  | 127 => ⟨S800000, .i32⟩
  | _ => ⟨S50000x64, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x64, .f32⟩
  | 7 => ⟨S800000x64, .f32⟩
  | 8 => ⟨S800000x64, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S50000x64, .f32⟩
  | 18 => ⟨S1x64, .f32⟩
  | 19 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_c_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_c_10 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_12 : Ref sig .tc := ⟨.hbm, 69, rfl⟩
abbrev main_v45 : Ref sig .tc := ⟨.hbm, 70, rfl⟩
abbrev main_v46 : Ref sig .tc := ⟨.hbm, 71, rfl⟩
abbrev main_c_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_14 : Ref sig .tc := ⟨.hbm, 80, rfl⟩
abbrev main_v54 : Ref sig .tc := ⟨.hbm, 81, rfl⟩
abbrev main_cst_15 : Ref sig .tc := ⟨.hbm, 82, rfl⟩
abbrev main_v55 : Ref sig .tc := ⟨.hbm, 83, rfl⟩
abbrev main_c_16 : Ref sig .tc := ⟨.hbm, 84, rfl⟩
abbrev main_v56 : Ref sig .tc := ⟨.hbm, 85, rfl⟩
abbrev main_v57 : Ref sig .tc := ⟨.hbm, 86, rfl⟩
abbrev main_c_17 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_18 : Ref sig .tc := ⟨.hbm, 93, rfl⟩
abbrev main_v63 : Ref sig .tc := ⟨.hbm, 94, rfl⟩
abbrev main_v64 : Ref sig .tc := ⟨.hbm, 95, rfl⟩
abbrev main_cst_19 : Ref sig .tc := ⟨.hbm, 96, rfl⟩
abbrev main_v65 : Ref sig .tc := ⟨.hbm, 97, rfl⟩
abbrev main_v66 : Ref sig .tc := ⟨.hbm, 98, rfl⟩
abbrev main_cst_20 : Ref sig .tc := ⟨.hbm, 99, rfl⟩
abbrev main_call1_v0 : Ref sig .tc := ⟨.hbm, 100, rfl⟩
abbrev main_call1_v1 : Ref sig .tc := ⟨.hbm, 101, rfl⟩
abbrev main_v67 : Ref sig .tc := ⟨.hbm, 102, rfl⟩
abbrev main_c_21 : Ref sig .tc := ⟨.hbm, 103, rfl⟩
abbrev main_v68 : Ref sig .tc := ⟨.hbm, 104, rfl⟩
abbrev main_v69 : Ref sig .tc := ⟨.hbm, 105, rfl⟩
abbrev main_c_22 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_23 : Ref sig .tc := ⟨.hbm, 112, rfl⟩
abbrev main_v75 : Ref sig .tc := ⟨.hbm, 113, rfl⟩
abbrev main_v76 : Ref sig .tc := ⟨.hbm, 114, rfl⟩
abbrev main_c_24 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_25 : Ref sig .tc := ⟨.hbm, 123, rfl⟩
abbrev main_v84 : Ref sig .tc := ⟨.hbm, 124, rfl⟩
abbrev main_v85 : Ref sig .tc := ⟨.hbm, 125, rfl⟩
abbrev main_c_26 : Ref sig .tc := ⟨.hbm, 126, rfl⟩
abbrev main_v86 : Ref sig .tc := ⟨.hbm, 127, rfl⟩
abbrev main_v87 : Ref sig .tc := ⟨.hbm, 128, rfl⟩
abbrev main_c_27 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_28 : Ref sig .tc := ⟨.hbm, 137, rfl⟩
abbrev main_v95 : Ref sig .tc := ⟨.hbm, 138, rfl⟩
abbrev main_v96 : Ref sig .tc := ⟨.hbm, 139, rfl⟩
abbrev main_c_29 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S800000x1_S800000x64_0_1 : S800000x1.BroadcastsInDim S800000x64 (![0, 1] : Fin 2 → Fin S800000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v52) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v53) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v53) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v101) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v102) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v103) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 159
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000x64, .f32⟩
  | 13 => ⟨S_, .f32⟩
  | 14 => ⟨S800000, .f32⟩
  | 15 => ⟨S_, .f32⟩
  | 16 => ⟨S50000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S800000, .f32⟩
  | 56 => ⟨S_, .f32⟩
  | 57 => ⟨S50000x64, .f32⟩
  | 58 => ⟨S800000x1, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x64, .f32⟩
  | 68 => ⟨S800000x64, .f32⟩
  | 69 => ⟨S800000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S50000x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S50000x64, .f32⟩
  | 88 => ⟨S_, .f32⟩
  | 89 => ⟨S800000, .f32⟩
  | 90 => ⟨S_, .f32⟩
  | 91 => ⟨S50000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S50000, .f32⟩
  | 101 => ⟨S_, .f32⟩
  | 102 => ⟨S50000, .f32⟩
  | 103 => ⟨S50000, .i1⟩
  | 104 => ⟨S_, .f32⟩
  | 105 => ⟨S50000, .f32⟩
  | 106 => ⟨S50000, .f32⟩
  | 107 => ⟨S_, .f32⟩
  | 108 => ⟨S_, .f32⟩
  | 109 => ⟨S50000, .f32⟩
  | 110 => ⟨S50000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x64, .f32⟩

abbrev hbmTy0_1 (i : Nat) : BufTy := match i % 128 with
  | 0 => ⟨S800000, .f32⟩
  | 1 => ⟨S800000, .f32⟩
  | 2 => ⟨S800000, .f32⟩
  | 3 => ⟨S_, .f32⟩
  | 4 => ⟨S50000x64, .f32⟩
  | 5 => ⟨S800000x1, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S800000x64, .f32⟩
  | 16 => ⟨S800000x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S50000x64, .f32⟩
  | 26 => ⟨S50000x64, .f32⟩
  | 27 => ⟨S50000x64, .f32⟩
  | 28 => ⟨S1x64, .f32⟩
  | 29 => ⟨S50000x64, .f32⟩
  | 30 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_c_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call1_cst : Ref sig .tc := ⟨.hbm, 84, rfl⟩
abbrev main_call1_v0 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_c_16 : Ref sig .tc := ⟨.hbm, 92, rfl⟩
abbrev main_v62 : Ref sig .tc := ⟨.hbm, 93, rfl⟩
abbrev main_v63 : Ref sig .tc := ⟨.hbm, 94, rfl⟩
abbrev main_c_17 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_18 : Ref sig .tc := ⟨.hbm, 101, rfl⟩
abbrev main_v69 : Ref sig .tc := ⟨.hbm, 102, rfl⟩
abbrev main_v70 : Ref sig .tc := ⟨.hbm, 103, rfl⟩
abbrev main_cst_19 : Ref sig .tc := ⟨.hbm, 104, rfl⟩
abbrev main_v71 : Ref sig .tc := ⟨.hbm, 105, rfl⟩
abbrev main_v72 : Ref sig .tc := ⟨.hbm, 106, rfl⟩
abbrev main_cst_20 : Ref sig .tc := ⟨.hbm, 107, rfl⟩
abbrev main_call2_v0 : Ref sig .tc := ⟨.hbm, 108, rfl⟩
abbrev main_call2_v1 : Ref sig .tc := ⟨.hbm, 109, rfl⟩
abbrev main_v73 : Ref sig .tc := ⟨.hbm, 110, rfl⟩
abbrev main_c_21 : Ref sig .tc := ⟨.hbm, 111, rfl⟩
abbrev main_v74 : Ref sig .tc := ⟨.hbm, 112, rfl⟩
abbrev main_v75 : Ref sig .tc := ⟨.hbm, 113, rfl⟩
abbrev main_c_22 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_23 : Ref sig .tc := ⟨.hbm, 120, rfl⟩
abbrev main_v81 : Ref sig .tc := ⟨.hbm, 121, rfl⟩
abbrev main_v82 : Ref sig .tc := ⟨.hbm, 122, rfl⟩
abbrev main_c_24 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_25 : Ref sig .tc := ⟨.hbm, 131, rfl⟩
abbrev main_v90 : Ref sig .tc := ⟨.hbm, 132, rfl⟩
abbrev main_v91 : Ref sig .tc := ⟨.hbm, 133, rfl⟩
abbrev main_c_26 : Ref sig .tc := ⟨.hbm, 134, rfl⟩
abbrev main_v92 : Ref sig .tc := ⟨.hbm, 135, rfl⟩
abbrev main_v93 : Ref sig .tc := ⟨.hbm, 136, rfl⟩
abbrev main_c_27 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_c_28 : Ref sig .tc := ⟨.hbm, 145, rfl⟩
abbrev main_v101 : Ref sig .tc := ⟨.hbm, 146, rfl⟩
abbrev main_v102 : Ref sig .tc := ⟨.hbm, 147, rfl⟩
abbrev main_c_29 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S800000x1_S800000x64_0_1 : S800000x1.BroadcastsInDim S800000x64 (![0, 1] : Fin 2 → Fin S800000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibPlainDot.lean ====
/-
  A plain matrix product read at an index, at the ideal values.

  The dimension numbers `DotDims.plain M K N` contract the second axis of an `M × K` left operand with the first axis of a
  `K × N` right operand. At the ideal instance a `tpu.matmul` with these numbers into the zero accumulator, and the
  host's `dot_general` with the same numbers, are both — at the result index `(p, q)` — the finite sum over `k : Fin K`
  of `lhs (p, k) * rhs (k, q)` on the extended reals. Nothing is assumed of `M`, `K`, `N` or of the operands' formats.

  The proof names the two operand indices coordinate by coordinate (`lhsIdx_plain`, `rhsIdx_plain`: a batch-free,
  single-contraction record sends `(p, q)` and `k` to `(p, k)` and `(k, q)`) and re-indexes the one-axis contraction shape
  by its coordinate.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : Nat)

/-- The one-axis contraction shape of a plain product, identified with `Fin K`. -/
abbrev contrFin : (DotDims.plain M K N).contr.Idx ≃ Fin K := contrEquiv1 (DotDims.plain M K N) K rfl rfl

/-- The left operand's index at result index `(p, q)` and contraction coordinate `k` is `(p, k)`. -/
theorem lhsIdx_plain (p : Fin M) (q : Fin N) (k : Fin K) :
    (DotDims.plain M K N).lhsIdx (ix2 p q) ((contrFin M K N).symm k) = ix2 p k := by
  funext a
  apply Fin.ext
  match a with
  | ⟨0, _⟩ =>
    show ((DotDims.plain M K N).lhsIdx (ix2 p q) ((contrFin M K N).symm k) (0 : Fin 2)).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    show ((DotDims.plain M K N).lhsIdx (ix2 p q) ((contrFin M K N).symm k) (1 : Fin 2)).val = k.val
    exact ((DotDims.plain M K N).lhsIdx_val_of_single rfl _ _).trans
      (contrEquiv1_symm_val (DotDims.plain M K N) K rfl rfl k)

/-- The right operand's index at result index `(p, q)` and contraction coordinate `k` is `(k, q)`. -/
theorem rhsIdx_plain (p : Fin M) (q : Fin N) (k : Fin K) :
    (DotDims.plain M K N).rhsIdx (ix2 p q) ((contrFin M K N).symm k) = ix2 k q := by
  funext a
  apply Fin.ext
  match a with
  | ⟨0, _⟩ =>
    show ((DotDims.plain M K N).rhsIdx (ix2 p q) ((contrFin M K N).symm k) (0 : Fin 2)).val = k.val
    exact ((DotDims.plain M K N).rhsIdx_val_of_single rfl _ _).trans
      (contrEquiv1_symm_val (DotDims.plain M K N) K rfl rfl k)
  | ⟨1, _⟩ =>
    show ((DotDims.plain M K N).rhsIdx (ix2 p q) ((contrFin M K N).symm k) (1 : Fin 2)).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)`, over `Fin K`. -/
theorem sum_plain (lhs : (⟨2, ![M, K]⟩ : Shape).Idx → EReal) (rhs : (⟨2, ![K, N]⟩ : Shape).Idx → EReal) (p : Fin M) (q : Fin N) :
    (∑ c : (DotDims.plain M K N).contr.Idx,
        lhs ((DotDims.plain M K N).lhsIdx (ix2 p q) c) * rhs ((DotDims.plain M K N).rhsIdx (ix2 p q) c))
      = ∑ k : Fin K, lhs (ix2 p k) * rhs (ix2 k q) := by
  rw [← Equiv.sum_comp (contrFin M K N).symm]
  exact Finset.sum_congr rfl fun k _ => by rw [lhsIdx_plain, rhsIdx_plain]

/-- A `tpu.matmul` with plain dimension numbers into the zero accumulator, at the ideal values, read at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain M K N lhs rhs p q)

/-- The host's `dot_general` with plain dimension numbers, at the ideal values, read at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain M K N lhs rhs p q)

end Cert.Lib.PlainDot

end
-- ==== Proof.ChebSpec.lean ====
/-
  Two Chebyshev graph-convolution layers (order K = 2) as functions of arrays over the extended reals.

  A layer takes the node features `h` (one row of 64 numbers per node), the features `lx` already multiplied by the
  scaled graph Laplacian, two 64 × 64 weight matrices and a bias, and returns `h · w0 + lx · w1 + b`: entry `(p, q)` is
  the sum over `k` of `h (p, k) * w0 (k, q)`, plus the sum over `k` of `lx (p, k) * w1 (k, q)`, plus `b q`
  (`affineAt`). Row `p` of the result depends on row `p` of `h` and of `lx` only (`affineAt_congr`), which is why a
  block of rows of the result is the same function of the same block of rows of the two operands.

  The first layer clamps its result below at zero (`hidden`); the second does not (`output`). The zero is kept as
  the float word it is printed as: both programs carry the same word, so it is never evaluated.
-/
import Idealize.ShloMosaic.Lib.ValueIdx
import Idealize.ShloMosaic.PureOps.Ideal

noncomputable section

open scoped BigOperators

namespace Cert.Cheb

open Idealize.ShloMosaic Idealize.ShloMosaic.ValueIdx

/-- An `M × N` array of extended reals, indexed as the printed programs index theirs. -/
abbrev Mat (M N : Nat) : Type := (⟨2, ![M, N]⟩ : Shape).Idx → EReal

/-- Entry `(p, q)` of `h · w0 + lx · w1 + b`, the sums grouped as both programs group them:
    the two products first, the bias last. -/
def affineAt {M : Nat} (h lx : Mat M 64) (w0 w1 : Mat 64 64) (b : Fin 64 → EReal) (p : Fin M) (q : Fin 64) : EReal :=
  (∑ k : Fin 64, h (ix2 p k) * w0 (ix2 k q) + ∑ k : Fin 64, lx (ix2 p k) * w1 (ix2 k q)) + b q

/-- Entry `(p, q)` reads row `p` of `h` and of `lx`, column `q` of the two weight matrices and entry `q` of the bias,
    and nothing else: operands that agree there (row `p` of one pair with row `p'` of another) give the same entry. -/
theorem affineAt_congr {M M' : Nat} (h lx : Mat M 64) (h' lx' : Mat M' 64) (w0 w1 w0' w1' : Mat 64 64)
    (b b' : Fin 64 → EReal) (p : Fin M) (p' : Fin M') (q : Fin 64)
    (hh : ∀ k : Fin 64, h (ix2 p k) = h' (ix2 p' k)) (hl : ∀ k : Fin 64, lx (ix2 p k) = lx' (ix2 p' k))
    (hw0 : ∀ k : Fin 64, w0 (ix2 k q) = w0' (ix2 k q)) (hw1 : ∀ k : Fin 64, w1 (ix2 k q) = w1' (ix2 k q))
    (hb : b q = b' q) :
    affineAt h lx w0 w1 b p q = affineAt h' lx' w0' w1' b' p' q := by
  have e0 : ∑ k : Fin 64, h (ix2 p k) * w0 (ix2 k q) = ∑ k : Fin 64, h' (ix2 p' k) * w0' (ix2 k q) :=
    Finset.sum_congr rfl fun k _ => by rw [hh k, hw0 k]
  have e1 : ∑ k : Fin 64, lx (ix2 p k) * w1 (ix2 k q) = ∑ k : Fin 64, lx' (ix2 p' k) * w1' (ix2 k q) :=
    Finset.sum_congr rfl fun k _ => by rw [hl k, hw1 k]
  unfold affineAt
  rw [e0, e1, hb]

/-- The first layer over all 50000 nodes: the affine stage clamped below at zero. -/
def hidden (x lx : Mat 50000 64) (w0 w1 : Mat 64 64) (b : Fin 64 → EReal) : Mat 50000 64 :=
  fun i => max (affineAt x lx w0 w1 b (i 0) (i 1)) (Ideal.ofBits .f32 0x00000000#32)

/-- The second layer over all 50000 nodes: the affine stage as it is. -/
def output (h lx : Mat 50000 64) (w0 w1 : Mat 64 64) (b : Fin 64 → EReal) : Mat 50000 64 :=
  fun i => affineAt h lx w0 w1 b (i 0) (i 1)

/-- `hidden` of equal operands. -/
theorem hidden_congr {x x' lx lx' : Mat 50000 64} {w0 w0' w1 w1' : Mat 64 64} {b b' : Fin 64 → EReal}
    (hx : x = x') (hl : lx = lx') (h0 : w0 = w0') (h1 : w1 = w1') (hb : b = b') :
    hidden x lx w0 w1 b = hidden x' lx' w0' w1' b' := by
  subst hx hl h0 h1 hb; rfl

/-- `output` of equal operands. -/
theorem output_congr {h h' lx lx' : Mat 50000 64} {w0 w0' w1 w1' : Mat 64 64} {b b' : Fin 64 → EReal}
    (hh : h = h') (hl : lx = lx') (h0 : w0 = w0') (h1 : w1 = w1') (hb : b = b') :
    output h lx w0 w1 b = output h' lx' w0' w1' b' := by
  subst hh hl h0 h1 hb; rfl

theorem hidden_apply (x lx : Mat 50000 64) (w0 w1 : Mat 64 64) (b : Fin 64 → EReal) (p : Fin 50000) (q : Fin 64) :
    hidden x lx w0 w1 b (ix2 p q) = max (affineAt x lx w0 w1 b p q) (Ideal.ofBits .f32 0x00000000#32) := rfl

theorem output_apply (h lx : Mat 50000 64) (w0 w1 : Mat 64 64) (b : Fin 64 → EReal) (p : Fin 50000) (q : Fin 64) :
    output h lx w0 w1 b (ix2 p q) = affineAt h lx w0 w1 b p q := rfl

end Cert.Cheb

end
-- ==== Proof.Laplacian.lean ====
/-
  The scaled-Laplacian product, as one function of a feature array and the edge list.

  Both programs compute it on the host by the same operations in the same order: split the 2 × 800000 edge list into
  sources and destinations; count each node's degree as a source by adding ones into zeros; take the degree to the power
  −1/2 where it is positive and 0 elsewhere; weigh edge `e` by minus the product of that quantity at its two ends; gather
  the source rows of the feature array, scale them by the edge weights, and add each into its destination row of a zero
  array. The function is named once (`lhat`), and neither program's proof ever opens it: the first layer applies it to the
  input features, the second to the first layer's result, and in both programs the two applications are this one
  function of a different first operand.
-/
import proofs.«156247_j26568667693641_1_alg».proof.Proof.RefRead
import proofs.«156247_j26568667693641_1_alg».proof.Proof.ChebSpec

noncomputable section

namespace Cert.Cheb

open Idealize.ShloMosaic

/-- The 2 × 800000 edge list: row 0 the sources, row 1 the destinations, as 32-bit words. -/
abbrev Edges : Type := (⟨2, ![2, 800000]⟩ : Shape).Idx → BitVec 32

/-- The features `h` multiplied by the scaled Laplacian of the graph `ei`. -/
def lhat (h : Mat 50000 64) (ei : Edges) : Mat 50000 64 :=
  Cert.ReferenceIdeal.ReadP.val_main_v52 (F := Ideal) h ei

/-- The whole network: the first layer on the input features and their Laplacian product, clamped; the second layer
    on that result and ITS Laplacian product. -/
def twoLayers (x : Mat 50000 64) (ei : Edges) (w10 w11 : Mat 64 64) (b1 : Fin 64 → EReal) (w20 w21 : Mat 64 64)
    (b2 : Fin 64 → EReal) : Mat 50000 64 :=
  output (hidden x (lhat x ei) w10 w11 b1) (lhat (hidden x (lhat x ei) w10 w11 b1) ei) w20 w21 b2

end Cert.Cheb

end
-- ==== Proof.Reference.lean ====
/-
  The reference program's result is the two-layer network `Cheb.twoLayers` of its arguments.

  The reference computes each layer with two host matrix products (each entry the sum over the 64 contracted
  positions of a left entry times a right entry), adds them, and adds the bias broadcast from a 64-vector to a
  1 × 64 row and then over the 50000 rows; the first layer's result is clamped below at zero by `maximum` against a
  broadcast zero. Its two scaled-Laplacian products are the one function `Cheb.lhat`: of the input features in the first
  layer (by definition of `lhat`), of the first layer's result in the second (the same operations, read off).
-/
import proofs.«156247_j26568667693641_1_alg».proof.Proof.RefRead
import proofs.«156247_j26568667693641_1_alg».proof.Proof.LibPlainDot
import proofs.«156247_j26568667693641_1_alg».proof.Proof.Laplacian

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Cheb Cert.Lib

/-- A bias vector as a function of the output column. -/
abbrev biasVec (b : FVec Ideal S64 .f32) : Fin 64 → EReal := fun q => b (ix1 q)

/-- One of a layer's two products at `(p, q)`: the sum over the contracted position. -/
theorem product_apply (a : FVec Ideal S50000x64 .f32) (w : FVec Ideal S64x64 .f32) (p : Fin 50000) (q : Fin 64) :
    Host.dotGeneral dot_S50000x64_S64x64_S50000x64_1_0_0_1_n_n none a w (ix2 p q)
      = ∑ k : Fin 64, a (ix2 p k) * w (ix2 k q) :=
  PlainDot.dotGeneral_apply 50000 64 64 none _ a w p q

/-- The bias, broadcast to a row and then over the rows, at `(p, q)`. -/
theorem bias_apply (b : FVec Ideal S64 .f32) (p : Fin 50000) (q : Fin 64) :
    broadcastInDim S50000x64 ![0, 1] bcast_S1x64_S50000x64_0_1 (broadcastInDim S1x64 ![1] bcast_S64_S1x64_1 b) (ix2 p q)
      = biasVec b q := by
  refine (broadcastInDim_apply ![0, 1] bcast_S1x64_S50000x64_0_1 _ (ix2 p q) (ix2 (0 : Fin 1) q) fun a => ?_).trans ?_
  · match a with
    | ⟨0, _⟩ => rfl
    | ⟨1, _⟩ => rfl
  · refine broadcastInDim_apply ![1] bcast_S64_S1x64_1 b (ix2 (0 : Fin 1) q) (ix1 q) fun a => ?_
    match a with
    | ⟨0, _⟩ => rfl

/-- A layer's affine stage as the reference computes it, at `(p, q)`. -/
theorem affine_apply (a lx : FVec Ideal S50000x64 .f32) (w0 w1 : FVec Ideal S64x64 .f32) (b : FVec Ideal S64 .f32)
    (p : Fin 50000) (q : Fin 64) :
    addf (addf (Host.dotGeneral dot_S50000x64_S64x64_S50000x64_1_0_0_1_n_n none a w0)
        (Host.dotGeneral dot_S50000x64_S64x64_S50000x64_1_0_0_1_n_n none lx w1))
      (broadcastInDim S50000x64 ![0, 1] bcast_S1x64_S50000x64_0_1 (broadcastInDim S1x64 ![1] bcast_S64_S1x64_1 b)) (ix2 p q)
      = affineAt a lx w0 w1 (biasVec b) p q := by
  refine (addf_apply _ _ (ix2 p q)).trans ?_
  unfold affineAt
  refine congrArg₂ (· + ·) ?_ (bias_apply b p q)
  refine (addf_apply _ _ (ix2 p q)).trans ?_
  exact congrArg₂ (· + ·) (product_apply a w0 p q) (product_apply lx w1 p q)

/-- THE FIRST LAYER of the reference is `Cheb.hidden` of the input features and their Laplacian product. -/
theorem hidden_eq (x0 : FVec Ideal S50000x64 .f32) (x1 : IVec S2x800000 32) (x2 x3 : FVec Ideal S64x64 .f32)
    (x4 : FVec Ideal S64 .f32) :
    val_main_v58 (F := Ideal) x0 x1 x2 x3 x4 = hidden x0 (lhat x0 x1) x2 x3 (biasVec x4) := by
  funext i
  obtain ⟨p, q, rfl⟩ : ∃ (p : Fin 50000) (q : Fin 64), i = ix2 p q := ⟨i 0, i 1, eq_ix2 i⟩
  rw [hidden_apply]
  unfold val_main_v58 val_main_v57 val_main_v54 val_main_v4 val_main_v53 val_main_v56 val_main_v55
  refine (maximumf_apply _ _ (ix2 p q)).trans ?_
  exact congrArg₂ max (affine_apply x0 (val_main_v52 (F := Ideal) x0 x1) x2 x3 x4 p q) rfl

/-- The reference's second Laplacian product is `Cheb.lhat` of its first layer's result. -/
theorem lap2_eq (x0 : FVec Ideal S50000x64 .f32) (x1 : IVec S2x800000 32) (x2 x3 : FVec Ideal S64x64 .f32)
    (x4 : FVec Ideal S64 .f32) :
    val_main_v107 (F := Ideal) x0 x1 x2 x3 x4 = lhat (val_main_v58 (F := Ideal) x0 x1 x2 x3 x4) x1 := rfl

/-- THE REFERENCE'S RESULT is the two-layer network of its arguments. -/
theorem result_eq (x0 : FVec Ideal S50000x64 .f32) (x1 : IVec S2x800000 32) (x2 x3 : FVec Ideal S64x64 .f32)
    (x4 : FVec Ideal S64 .f32) (x5 x6 : FVec Ideal S64x64 .f32) (x7 : FVec Ideal S64 .f32) :
    val_main_v112 (F := Ideal) x0 x1 x2 x3 x4 x5 x6 x7
      = twoLayers x0 x1 x2 x3 (biasVec x4) x5 x6 (biasVec x7) := by
  funext i
  obtain ⟨p, q, rfl⟩ : ∃ (p : Fin 50000) (q : Fin 64), i = ix2 p q := ⟨i 0, i 1, eq_ix2 i⟩
  unfold twoLayers
  rw [output_apply, ← hidden_eq x0 x1 x2 x3 x4, ← lap2_eq x0 x1 x2 x3 x4]
  unfold val_main_v112 val_main_v109 val_main_v59 val_main_v108 val_main_v111 val_main_v110
  exact affine_apply (val_main_v58 (F := Ideal) x0 x1 x2 x3 x4) (val_main_v107 (F := Ideal) x0 x1 x2 x3 x4) x5 x6 x7 p q

end Cert.ReferenceIdeal.RefValue

end
-- ==== Proof.KernelRun.lean ====
/-
  The kernel program's run with its result named.

  The program is two dense stages on the TensorCore among stretches of host operations. Its run is a chain of eight
  segments — three host stretches, the first stage, three host stretches, the second stage — and the buffer contents
  at each boundary are a fold from the launch memory: a host stretch applies its operations, a stage replaces its
  arrays by what its write-backs leave. The last boundary's contents are `Gen.W8`. Every weakly fair execution
  terminates, nothing faulting, in a state whose unscoped buffers hold exactly `Gen.W8`; read at the result buffer
  that names the program's result, and read at the argument buffers it gives back the launch contents.
-/
import proofs.«156247_j26568667693641_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v103) = W8 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v103 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.KernelBody.lean ====
/-
  What one grid point of each of the two dense stages stores, entry by entry, at the ideal values.

  A grid point holds a block of 2000 rows of the node features `x0`, the same 2000 rows of the Laplacian-multiplied
  features `x1`, the two whole 64 × 64 weight matrices `x2`, `x3` and the bias as a 1 × 64 row `x4`. The body narrows
  the four matrices to bf16 (the identity on extended reals), multiplies `x0 · x2` and `x1 · x3` into zero accumulators
  (each entry the sum over the 64 contracted positions), adds the two products, adds the bias row broadcast over the
  2000 rows, and — in the first stage only — clamps below at zero. So entry `(r, q)` of what is stored is
  `Cheb.affineAt x0 x1 x2 x3 (the bias row) r q`, clamped in the first stage.
-/
import proofs.«156247_j26568667693641_1_alg».proof.Proof.Gen.KernelIdeal.Skeleton
import proofs.«156247_j26568667693641_1_alg».proof.Proof.LibPlainDot
import proofs.«156247_j26568667693641_1_alg».proof.Proof.ChebSpec
import Idealize.ShloMosaic.Lib.ValueLayout

noncomputable section

open scoped BigOperators

namespace Cert.KernelIdeal.Body

open Cert.KernelIdeal Cert.KernelIdeal.Gen Idealize.ShloMosaic Idealize.ShloMosaic.ValueIdx Cert.Cheb Cert.Lib

/-- The bias row of a stage, as a function of the output column. -/
abbrev biasRow (x4 : Vec Ideal S1x64 .f32) : Fin 64 → EReal := fun q => x4 (ix2 (0 : Fin 1) q)

/-- One of the stage's two products at `(r, q)`: the sum over the contracted position. -/
theorem product_apply (a : FVec Ideal S2000x64 .bf16) (w : FVec Ideal S64x64 .bf16) (r : Fin 2000) (q : Fin 64) :
    matmul dot_S2000x64_S64x64_S2000x64_1_0_0_1_n_n none a w (constant S2000x64 .f32 0x00000000#32) (ix2 r q)
      = ∑ k : Fin 64, a (ix2 r k) * w (ix2 k q) :=
  PlainDot.matmul_zero_apply 2000 64 64 none a w r q

/-- The bias row broadcast over the block's rows, at `(r, q)`. -/
theorem bias_apply (x4 : Vec Ideal S1x64 .f32) (r : Fin 2000) (q : Fin 64) :
    broadcastTo S2000x64 (shapeCast S1x64 x4 shapeCasts_S1x64_S1x64) broadcasts_S1x64_S2000x64 (ix2 r q) = biasRow x4 q :=
  (broadcastTo_1b_ab_apply _ broadcasts_S1x64_S2000x64 r q).trans
    (congrFun (shapeCast_self x4 shapeCasts_S1x64_S1x64) (ix2 (0 : Fin 1) q))

/-- FIRST STAGE: entry `(r, q)` of what a grid point stores. -/
theorem pay0_apply (x0 x1 : Vec Ideal S2000x64 .f32) (x2 x3 : Vec Ideal S64x64 .f32) (x4 : Vec Ideal S1x64 .f32)
    (r : Fin 2000) (q : Fin 64) :
    k0_pay1 (F := Ideal) x0 x1 x2 x3 x4 (ix2 r q)
      = max (affineAt x0 x1 x2 x3 (biasRow x4) r q) (Ideal.ofBits .f32 0x00000000#32) := by
  unfold k0_pay1
  refine (maximumf_apply _ _ (ix2 r q)).trans ?_
  refine congrArg₂ max ?_ rfl
  refine (addf_apply _ _ (ix2 r q)).trans ?_
  unfold affineAt
  refine congrArg₂ (· + ·) ?_ (bias_apply x4 r q)
  refine (addf_apply _ _ (ix2 r q)).trans ?_
  refine congrArg₂ (· + ·) (product_apply _ _ r q) ?_
  refine (product_apply _ _ r q).trans ?_
  exact Finset.sum_congr rfl fun k _ =>
    congrArg (· * x3 (ix2 k q)) (congrFun (shapeCast_self x1 shapeCasts_S2000x64_S2000x64) (ix2 r k))

/-- SECOND STAGE: entry `(r, q)` of what a grid point stores. -/
theorem pay1_apply (x0 x1 : Vec Ideal S2000x64 .f32) (x2 x3 : Vec Ideal S64x64 .f32) (x4 : Vec Ideal S1x64 .f32)
    (r : Fin 2000) (q : Fin 64) :
    k1_pay1 (F := Ideal) x0 x1 x2 x3 x4 (ix2 r q) = affineAt x0 x1 x2 x3 (biasRow x4) r q := by
  unfold k1_pay1
  refine (addf_apply _ _ (ix2 r q)).trans ?_
  unfold affineAt
  refine congrArg₂ (· + ·) ?_ (bias_apply x4 r q)
  refine (addf_apply _ _ (ix2 r q)).trans ?_
  refine congrArg₂ (· + ·) ?_ ?_
  · refine (product_apply _ _ r q).trans ?_
    exact Finset.sum_congr rfl fun k _ =>
      congrArg (· * x2 (ix2 k q)) (congrFun (shapeCast_self x0 shapeCasts_S2000x64_S2000x64) (ix2 r k))
  · refine (product_apply _ _ r q).trans ?_
    exact Finset.sum_congr rfl fun k _ =>
      congrArg (· * x3 (ix2 k q)) (congrFun (shapeCast_self x1 shapeCasts_S2000x64_S2000x64) (ix2 r k))

end Cert.KernelIdeal.Body

end
-- ==== Proof.KernelBlocks0.lean ====
/-
  FIRST DENSE STAGE, from blocks to the whole array.

  The stage runs over 25 grid points. Point `t` reads rows `2000 t … 2000 t + 1999` of the node features and of the
  Laplacian-multiplied features (two 2000 × 64 blocks), the two whole weight matrices and the whole bias row, and writes
  back rows `2000 t … 2000 t + 1999` of the result. Because an entry of the result reads only its own row of the two
  feature arrays (`Cheb.affineAt_congr`), what point `t` writes back is block `t` of ONE function of the whole arrays,
  `Cheb.hidden`; and because the 25 blocks of 2000 rows tile the 50000 rows, the result array ends holding that
  function. Everything is stated at the contents `V` the stage finds in its five operand arrays, whatever they are.
-/
import proofs.«156247_j26568667693641_1_alg».proof.Proof.Gen.KernelIdeal.Frame
import proofs.«156247_j26568667693641_1_alg».proof.Proof.KernelBody
import Idealize.ShloMosaic.Lib.Pipeline.Value

set_option maxRecDepth 16384

noncomputable section

namespace Cert.KernelIdeal.Blocks

open Cert.KernelIdeal Cert.KernelIdeal.Gen Cert.KernelIdeal.Body Idealize.ShloMosaic Idealize.ShloMosaic.TcCoe
open Idealize.ShloMosaic.ValueIdx Idealize.SL.Sem Cert.Cheb
open Idealize.ShloMosaic.Pipeline (Dat Cfg Window)

variable (V : (c : Dev nD) → (b : Ref sig .tc) → Buf (Elt Ideal) ((c : Thread nD τ).loc b))

/-- The zero offsets of a whole-block load or store, as a constant function. -/
theorem zero_off : (![0, 0] : Fin 2 → Nat) = fun _ => 0 := funext fun a => by fin_cases a <;> rfl

/-- The stage's index maps, decided over its 25 grid points: the two feature windows and the output window sit at
    block row `t`, block column 0; the weights and the bias always at block (0, 0). -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row below 25 is some grid point's. -/
theorem index_onto0 : ∀ q0 : Fin 25, ∃ t : Fin cfg0.N, t.val = q0.val :=
  (by decide +kernel : ∀ q0 : Fin 25, ∃ t : Fin grid0.N, t.val = q0.val)

theorem point_lt0 (t : Fin cfg0.N) : t.val < 25 := by
  have h : cfg0.N = 25 := N_0
  have := t.isLt
  omega

/-- Row `r` of point `t`'s block is row `2000 t + r` of the array. -/
abbrev row0 (t : Fin cfg0.N) (r : Fin 2000) : Fin 50000 :=
  ⟨t.val * 2000 + r.val, by have := point_lt0 t; have := r.isLt; omega⟩

/-- The features block at a point, read in the array. -/
theorem feat_block0 (c : Dev nD) (t : Fin cfg0.N) (r : Fin 2000) (k : Fin 64) :
    iblk0 V c 0 t (ix2 r k) = V c main_arg0 (ix2 (row0 t r) k) := by
  obtain ⟨e0, e1, -⟩ := index_facts0 t
  show V c main_arg0 (((cfg0.win 0).blk t).view.emb (ix2 r k)) = V c main_arg0 (ix2 (row0 t r) k)
  refine congrArg _ (funext fun a => Fin.ext ?_)
  match a with
  | ⟨0, _⟩ => show win0_0.index t (0 : Fin 2) * 2000 + 1 * r.val = t.val * 2000 + r.val; omega
  | ⟨1, _⟩ => show win0_0.index t (1 : Fin 2) * 64 + 1 * k.val = k.val; omega

/-- The Laplacian-multiplied features block at a point, read in the array. -/
theorem lap_block0 (c : Dev nD) (t : Fin cfg0.N) (r : Fin 2000) (k : Fin 64) :
    iblk0 V c 1 t (ix2 r k) = V c main_v51 (ix2 (row0 t r) k) := by
  obtain ⟨-, -, e0, e1, -⟩ := index_facts0 t
  show V c main_v51 (((cfg0.win 1).blk t).view.emb (ix2 r k)) = V c main_v51 (ix2 (row0 t r) k)
  refine congrArg _ (funext fun a => Fin.ext ?_)
  match a with
  | ⟨0, _⟩ => show win0_1.index t (0 : Fin 2) * 2000 + 1 * r.val = t.val * 2000 + r.val; omega
  | ⟨1, _⟩ => show win0_1.index t (1 : Fin 2) * 64 + 1 * k.val = k.val; omega

/-- The first weight matrix's block at any point is the matrix. -/
theorem w0_block0 (c : Dev nD) (t : Fin cfg0.N) (k q : Fin 64) :
    iblk0 V c 2 t (ix2 k q) = V c main_arg2 (ix2 k q) := by
  obtain ⟨-, -, -, -, e0, e1, -⟩ := index_facts0 t
  show V c main_arg2 (((cfg0.win 2).blk t).view.emb (ix2 k q)) = V c main_arg2 (ix2 k q)
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

/-- The second weight matrix's block at any point is the matrix. -/
theorem w1_block0 (c : Dev nD) (t : Fin cfg0.N) (k q : Fin 64) :
    iblk0 V c 3 t (ix2 k q) = V c main_arg3 (ix2 k q) := by
  obtain ⟨-, -, -, -, -, -, e0, e1, -⟩ := index_facts0 t
  show V c main_arg3 (((cfg0.win 3).blk t).view.emb (ix2 k q)) = V c main_arg3 (ix2 k q)
  refine congrArg _ (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

/-- The bias row's block at any point is the row. -/
theorem bias_block0 (c : Dev nD) (t : Fin cfg0.N) (q : Fin 64) :
    iblk0 V c 4 t (ix2 (0 : Fin 1) q) = V c main_v52 (ix2 (0 : Fin 1) q) := by
  obtain ⟨-, -, -, -, -, -, -, -, e0, e1, -⟩ := index_facts0 t
  show V c main_v52 (((cfg0.win 4).blk t).view.emb (ix2 (0 : Fin 1) q)) = V c main_v52 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

/-- The stage's result as one function of the arrays it finds. -/
abbrev stage0 (c : Dev nD) : Mat 50000 64 :=
  hidden (V c main_arg0) (V c main_v51) (V c main_arg2) (V c main_arg3) (biasRow (V c main_v52))

/-- WHAT POINT `t` WRITES BACK is block `t` of `stage0`. -/
theorem flushed0_eq (c : Dev nD) (t : Fin cfg0.N) :
    (dat0 (F := Ideal) V c).flushed 5 t = ((cfg0.win 5).blk t).view.read (Elt Ideal) (stage0 V c) := by
  show (cfg0.win 5).cut (grid0.coords t) ((dat0 V c).after 5 t) = _
  rw [after0_5]
  unfold out0_5
  rw [View.canon_unit_zero zero_off]
  simp only [View.ld_unit_zero (S := S2000x64) zero_off, View.ld_unit_zero (S := S64x64) zero_off,
    View.ld_unit_zero (S := S1x64) zero_off]
  funext j
  obtain ⟨r, q, rfl⟩ : ∃ (r : Fin 2000) (q : Fin 64), j = ix2 r q := ⟨j 0, j 1, eq_ix2 j⟩
  obtain ⟨-, -, -, -, -, -, -, -, -, -, e0, e1⟩ := index_facts0 t
  have hemb : ((cfg0.win 5).blk t).view.emb (ix2 r q) = ix2 (row0 t r) q := by
    funext a; apply Fin.ext
    match a with
    | ⟨0, _⟩ => show win0_5.index t (0 : Fin 2) * 2000 + 1 * r.val = t.val * 2000 + r.val; omega
    | ⟨1, _⟩ => show win0_5.index t (1 : Fin 2) * 64 + 1 * q.val = q.val; omega
  show k0_pay1 (iblk0 V c 0 t) (iblk0 V c 1 t) (iblk0 V c 2 t) (iblk0 V c 3 t) (iblk0 V c 4 t) (ix2 r q)
    = stage0 V c (((cfg0.win 5).blk t).view.emb (ix2 r q))
  rw [hemb]
  refine (pay0_apply (iblk0 V c 0 t) (iblk0 V c 1 t) (iblk0 V c 2 t) (iblk0 V c 3 t) (iblk0 V c 4 t) r q).trans ?_
  refine (congrArg (max · (Ideal.ofBits .f32 0x00000000#32)) ?_).trans (hidden_apply _ _ _ _ _ (row0 t r) q).symm
  exact affineAt_congr _ _ _ _ _ _ _ _ _ _ r (row0 t r) q
    (fun k => feat_block0 V c t r k) (fun k => lap_block0 V c t r k)
    (fun k => w0_block0 V c t k q) (fun k => w1_block0 V c t k q) (bias_block0 V c t q)

/-- An index of the result array is in point `t`'s block iff each coordinate is in the block's range on its axis. -/
theorem mem_block0 (t : Fin cfg0.N) (i : S50000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v53).slice (win0_5.rect t)).set ↔ _
  rw [View.set_slice_whole, Rect.mem_set_unit]
  exact Iff.rfl

/-- The 25 blocks of 2000 rows tile the 50000 rows: row `p` is in the block of point `p / 2000`. -/
theorem cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := index_onto0 ⟨(i 0).val / 2000, by omega⟩
  have ht' : t.val = (i 0).val / 2000 := ht
  obtain ⟨-, -, -, -, -, -, -, -, -, -, e0, e1⟩ := index_facts0 t
  refine ⟨t, flush0_5 t, ?_⟩
  rw [mem_block0]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 64 ≤ (i 1).val ∧ (i 1).val < win0_5.index t (1 : Fin 2) * 64 + 64
    omega

/-- THE RESULT ARRAY after the stage: `Cheb.hidden` of the five arrays the stage finds. -/
theorem final0 (c : Dev nD) : (dat0 (F := Ideal) V c).arrAt 5 cfg0.N = stage0 V c :=
  (dat0 V c).arrAt_eq_of_cover 5 (stage0 V c) (fun t _ => flushed0_eq V c t) (cover0)

end Cert.KernelIdeal.Blocks

end
-- ==== Proof.KernelBlocks1.lean ====
/-
  SECOND DENSE STAGE, from blocks to the whole array.

  The second stage has the first stage's shape: 25 grid points, point `t` reading rows `2000 t … 2000 t + 1999` of its
  two feature arrays (the first stage's result, and that result multiplied by the scaled Laplacian), the two whole
  weight matrices and the whole bias row, and writing back the same rows of the result. It does not clamp. So what
  point `t` writes back is block `t` of `Cheb.output` of the five arrays the stage finds, and the 25 blocks tile the
  result array.
-/
import proofs.«156247_j26568667693641_1_alg».proof.Proof.Gen.KernelIdeal.Frame
import proofs.«156247_j26568667693641_1_alg».proof.Proof.KernelBody
import proofs.«156247_j26568667693641_1_alg».proof.Proof.KernelBlocks0
import Idealize.ShloMosaic.Lib.Pipeline.Value

set_option maxRecDepth 16384

noncomputable section

namespace Cert.KernelIdeal.Blocks

open Cert.KernelIdeal Cert.KernelIdeal.Gen Cert.KernelIdeal.Body Idealize.ShloMosaic Idealize.ShloMosaic.TcCoe
open Idealize.ShloMosaic.ValueIdx Idealize.SL.Sem Cert.Cheb
open Idealize.ShloMosaic.Pipeline (Dat Cfg Window)

variable (V : (c : Dev nD) → (b : Ref sig .tc) → Buf (Elt Ideal) ((c : Thread nD τ).loc b))

/-- The second stage's index maps, decided over its 25 grid points: as the first stage's. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block row below 25 is some grid point's. -/
theorem index_onto1 : ∀ q0 : Fin 25, ∃ t : Fin cfg1.N, t.val = q0.val :=
  (by decide +kernel : ∀ q0 : Fin 25, ∃ t : Fin grid1.N, t.val = q0.val)

theorem point_lt1 (t : Fin cfg1.N) : t.val < 25 := by
  have h : cfg1.N = 25 := N_1
  have := t.isLt
  omega

/-- Row `r` of point `t`'s block is row `2000 t + r` of the array. -/
abbrev row1 (t : Fin cfg1.N) (r : Fin 2000) : Fin 50000 :=
  ⟨t.val * 2000 + r.val, by have := point_lt1 t; have := r.isLt; omega⟩

/-- The block of the stage's features (the first stage's result) at a point, read in the array. -/
theorem feat_block1 (c : Dev nD) (t : Fin cfg1.N) (r : Fin 2000) (k : Fin 64) :
    iblk1 V c 0 t (ix2 r k) = V c main_v53 (ix2 (row1 t r) k) := by
  obtain ⟨e0, e1, -⟩ := index_facts1 t
  show V c main_v53 (((cfg1.win 0).blk t).view.emb (ix2 r k)) = V c main_v53 (ix2 (row1 t r) k)
  refine congrArg _ (funext fun a => Fin.ext ?_)
  match a with
  | ⟨0, _⟩ => show win1_0.index t (0 : Fin 2) * 2000 + 1 * r.val = t.val * 2000 + r.val; omega
  | ⟨1, _⟩ => show win1_0.index t (1 : Fin 2) * 64 + 1 * k.val = k.val; omega

/-- The block of those features multiplied by the scaled Laplacian, at a point, read in the array. -/
theorem lap_block1 (c : Dev nD) (t : Fin cfg1.N) (r : Fin 2000) (k : Fin 64) :
    iblk1 V c 1 t (ix2 r k) = V c main_v101 (ix2 (row1 t r) k) := by
  obtain ⟨-, -, e0, e1, -⟩ := index_facts1 t
  show V c main_v101 (((cfg1.win 1).blk t).view.emb (ix2 r k)) = V c main_v101 (ix2 (row1 t r) k)
  refine congrArg _ (funext fun a => Fin.ext ?_)
  match a with
  | ⟨0, _⟩ => show win1_1.index t (0 : Fin 2) * 2000 + 1 * r.val = t.val * 2000 + r.val; omega
  | ⟨1, _⟩ => show win1_1.index t (1 : Fin 2) * 64 + 1 * k.val = k.val; omega

/-- The block of this stage's first weight matrix at any point is the matrix. -/
theorem w0_block1 (c : Dev nD) (t : Fin cfg1.N) (k q : Fin 64) :
    iblk1 V c 2 t (ix2 k q) = V c main_arg5 (ix2 k q) := by
  obtain ⟨-, -, -, -, e0, e1, -⟩ := index_facts1 t
  show V c main_arg5 (((cfg1.win 2).blk t).view.emb (ix2 k q)) = V c main_arg5 (ix2 k q)
  refine congrArg _ (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-- The block of this stage's second weight matrix at any point is the matrix. -/
theorem w1_block1 (c : Dev nD) (t : Fin cfg1.N) (k q : Fin 64) :
    iblk1 V c 3 t (ix2 k q) = V c main_arg6 (ix2 k q) := by
  obtain ⟨-, -, -, -, -, -, e0, e1, -⟩ := index_facts1 t
  show V c main_arg6 (((cfg1.win 3).blk t).view.emb (ix2 k q)) = V c main_arg6 (ix2 k q)
  refine congrArg _ (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

/-- The bias row's block at any point is the row. -/
theorem bias_block1 (c : Dev nD) (t : Fin cfg1.N) (q : Fin 64) :
    iblk1 V c 4 t (ix2 (0 : Fin 1) q) = V c main_v102 (ix2 (0 : Fin 1) q) := by
  obtain ⟨-, -, -, -, -, -, -, -, e0, e1, -⟩ := index_facts1 t
  show V c main_v102 (((cfg1.win 4).blk t).view.emb (ix2 (0 : Fin 1) q)) = V c main_v102 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- The stage's result as one function of the arrays it finds. -/
abbrev stage1 (c : Dev nD) : Mat 50000 64 :=
  output (V c main_v53) (V c main_v101) (V c main_arg5) (V c main_arg6) (biasRow (V c main_v102))

/-- WHAT POINT `t` WRITES BACK is block `t` of `stage1`. -/
theorem flushed1_eq (c : Dev nD) (t : Fin cfg1.N) :
    (dat1 (F := Ideal) V c).flushed 5 t = ((cfg1.win 5).blk t).view.read (Elt Ideal) (stage1 V c) := by
  show (cfg1.win 5).cut (grid1.coords t) ((dat1 V c).after 5 t) = _
  rw [after1_5]
  unfold out1_5
  rw [View.canon_unit_zero zero_off]
  simp only [View.ld_unit_zero (S := S2000x64) zero_off, View.ld_unit_zero (S := S64x64) zero_off,
    View.ld_unit_zero (S := S1x64) zero_off]
  funext j
  obtain ⟨r, q, rfl⟩ : ∃ (r : Fin 2000) (q : Fin 64), j = ix2 r q := ⟨j 0, j 1, eq_ix2 j⟩
  obtain ⟨-, -, -, -, -, -, -, -, -, -, e0, e1⟩ := index_facts1 t
  have hemb : ((cfg1.win 5).blk t).view.emb (ix2 r q) = ix2 (row1 t r) q := by
    funext a; apply Fin.ext
    match a with
    | ⟨0, _⟩ => show win1_5.index t (0 : Fin 2) * 2000 + 1 * r.val = t.val * 2000 + r.val; omega
    | ⟨1, _⟩ => show win1_5.index t (1 : Fin 2) * 64 + 1 * q.val = q.val; omega
  show k1_pay1 (iblk1 V c 0 t) (iblk1 V c 1 t) (iblk1 V c 2 t) (iblk1 V c 3 t) (iblk1 V c 4 t) (ix2 r q)
    = stage1 V c (((cfg1.win 5).blk t).view.emb (ix2 r q))
  rw [hemb]
  refine (pay1_apply (iblk1 V c 0 t) (iblk1 V c 1 t) (iblk1 V c 2 t) (iblk1 V c 3 t) (iblk1 V c 4 t) r q).trans ?_
  refine Eq.trans ?_ (output_apply _ _ _ _ _ (row1 t r) q).symm
  exact affineAt_congr _ _ _ _ _ _ _ _ _ _ r (row1 t r) q
    (fun k => feat_block1 V c t r k) (fun k => lap_block1 V c t r k)
    (fun k => w0_block1 V c t k q) (fun k => w1_block1 V c t k q) (bias_block1 V c t q)

/-- An index of the result array is in point `t`'s block iff each coordinate is in the block's range on its axis. -/
theorem mem_block1 (t : Fin cfg1.N) (i : S50000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v103).slice (win1_5.rect t)).set ↔ _
  rw [View.set_slice_whole, Rect.mem_set_unit]
  exact Iff.rfl

/-- The 25 blocks of 2000 rows tile the 50000 rows: row `p` is in the block of point `p / 2000`. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := index_onto1 ⟨(i 0).val / 2000, by omega⟩
  have ht' : t.val = (i 0).val / 2000 := ht
  obtain ⟨-, -, -, -, -, -, -, -, -, -, e0, e1⟩ := index_facts1 t
  refine ⟨t, flush1_5 t, ?_⟩
  rw [mem_block1]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 64 ≤ (i 1).val ∧ (i 1).val < win1_5.index t (1 : Fin 2) * 64 + 64
    omega

/-- THE RESULT ARRAY after the stage: `Cheb.output` of the five arrays the stage finds. -/
theorem final1 (c : Dev nD) : (dat1 (F := Ideal) V c).arrAt 5 cfg1.N = stage1 V c :=
  (dat1 V c).arrAt_eq_of_cover 5 (stage1 V c) (fun t _ => flushed1_eq V c t) (cover1)

end Cert.KernelIdeal.Blocks

end
-- ==== Proof.KernelHost.lean ====
/-
  What the kernel program's host operations leave in the arrays its two dense stages read.

  Before the first stage the host computes the scaled-Laplacian product of the input features (the function of the
  features and the edge list that the reference's read-back names `val_main_v52`, and `Cheb.lhat` names at the ideal
  values) and reshapes the first bias to a 1 × 64 row; the features and the first two weight matrices are as launched.
  Between the stages it computes the same product of the FIRST STAGE'S RESULT (with the launch edge list) and reshapes
  the second bias; the first stage's result and the last two weight matrices are untouched.

  Everything here is stated for an arbitrary float instance: the two programs' host operations are the same
  operations, and their equality is read off the two terms without evaluating any float operation.
-/
import proofs.«156247_j26568667693641_1_alg».proof.Proof.Gen.KernelIdeal.Frame
import proofs.«156247_j26568667693641_1_alg».proof.Proof.RefRead
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## Before the first stage -/

set_option maxHeartbeats 4000000 in
/-- The input features reach the first stage as launched. -/
theorem entry0_features (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp

set_option maxHeartbeats 4000000 in
/-- The first weight matrix reaches the first stage as launched. -/
theorem entry0_w0 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results_simp

set_option maxHeartbeats 4000000 in
/-- The second weight matrix reaches the first stage as launched. -/
theorem entry0_w1 (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  after_results_simp

set_option maxHeartbeats 4000000 in
/-- The first bias reaches the first stage reshaped to a row. -/
theorem entry0_bias (c : Dev nD) :
    V3 m ρ c main_v52 = shapeCast S1x64 (m ((c : Thread nD τ).loc main_arg4)) shapeCasts_S64_S1x64 := by
  show StableHlo.after hostOps0_2 (StableHlo.after hostOps0_1 (StableHlo.after hostOps0 (W0 m ρ c))) (Proc.devRef .tc main_v52) = _
  after_results_simp
  rfl

set_option maxHeartbeats 16000000 in
/-- The first stage's second operand is the scaled-Laplacian product of the launch features. -/
theorem entry0_lap (c : Dev nD) :
    V3 m ρ c main_v51 = Cert.ReferenceIdeal.ReadP.val_main_v52 (F := F)
      (m ((c : Thread nD τ).loc main_arg0)) (m ((c : Thread nD τ).loc main_arg1)) := by
  show StableHlo.after hostOps0_2 (StableHlo.after hostOps0_1 (StableHlo.after hostOps0 (W0 m ρ c))) (Proc.devRef .tc main_v51) = _
  after_results_simp
  rfl

/-! ## Across the first stage: what it does not write -/

set_option maxHeartbeats 4000000 in
/-- The edge list is as launched when the first stage is left. -/
theorem exit0_edges (c : Dev nD) : W4 m ρ c (Proc.devRef .tc main_arg1) = m ((c : Thread nD τ).loc main_arg1) := by
  refine (W4_of_ne m ρ c main_arg1 (by decide)).trans ?_
  show StableHlo.after hostOps0_2 (StableHlo.after hostOps0_1 (StableHlo.after hostOps0 (W0 m ρ c))) (Proc.devRef .tc main_arg1) = _
  after_results_simp

set_option maxHeartbeats 4000000 in
/-- The third weight matrix is as launched when the first stage is left. -/
theorem exit0_w0 (c : Dev nD) : W4 m ρ c (Proc.devRef .tc main_arg5) = m ((c : Thread nD τ).loc main_arg5) := by
  refine (W4_of_ne m ρ c main_arg5 (by decide)).trans ?_
  show StableHlo.after hostOps0_2 (StableHlo.after hostOps0_1 (StableHlo.after hostOps0 (W0 m ρ c))) (Proc.devRef .tc main_arg5) = _
  after_results_simp

set_option maxHeartbeats 4000000 in
/-- The fourth weight matrix is as launched when the first stage is left. -/
theorem exit0_w1 (c : Dev nD) : W4 m ρ c (Proc.devRef .tc main_arg6) = m ((c : Thread nD τ).loc main_arg6) := by
  refine (W4_of_ne m ρ c main_arg6 (by decide)).trans ?_
  show StableHlo.after hostOps0_2 (StableHlo.after hostOps0_1 (StableHlo.after hostOps0 (W0 m ρ c))) (Proc.devRef .tc main_arg6) = _
  after_results_simp

set_option maxHeartbeats 4000000 in
/-- The second bias is as launched when the first stage is left. -/
theorem exit0_bias (c : Dev nD) : W4 m ρ c (Proc.devRef .tc main_arg7) = m ((c : Thread nD τ).loc main_arg7) := by
  refine (W4_of_ne m ρ c main_arg7 (by decide)).trans ?_
  show StableHlo.after hostOps0_2 (StableHlo.after hostOps0_1 (StableHlo.after hostOps0 (W0 m ρ c))) (Proc.devRef .tc main_arg7) = _
  after_results_simp

/-! ## Before the second stage -/

set_option maxHeartbeats 4000000 in
/-- The first stage's result reaches the second stage as the first stage left it. -/
theorem entry1_features (c : Dev nD) : V7 m ρ c main_v53 = (dat0 (V3 m ρ) c).arrAt 5 cfg0.N := by
  refine Eq.trans ?_ (W4_arr m ρ c 5)
  show StableHlo.after hostOps1_2 (StableHlo.after hostOps1_1 (StableHlo.after hostOps1 (W4 m ρ c))) (Proc.devRef .tc main_v53) = _
  after_results_simp

set_option maxHeartbeats 4000000 in
/-- The third weight matrix reaches the second stage as launched. -/
theorem entry1_w0 (c : Dev nD) : V7 m ρ c main_arg5 = m ((c : Thread nD τ).loc main_arg5) := by
  refine Eq.trans ?_ (exit0_w0 m ρ c)
  show StableHlo.after hostOps1_2 (StableHlo.after hostOps1_1 (StableHlo.after hostOps1 (W4 m ρ c))) (Proc.devRef .tc main_arg5) = _
  after_results_simp

set_option maxHeartbeats 4000000 in
/-- The fourth weight matrix reaches the second stage as launched. -/
theorem entry1_w1 (c : Dev nD) : V7 m ρ c main_arg6 = m ((c : Thread nD τ).loc main_arg6) := by
  refine Eq.trans ?_ (exit0_w1 m ρ c)
  show StableHlo.after hostOps1_2 (StableHlo.after hostOps1_1 (StableHlo.after hostOps1 (W4 m ρ c))) (Proc.devRef .tc main_arg6) = _
  after_results_simp

set_option maxHeartbeats 4000000 in
/-- The second bias reaches the second stage reshaped to a row. -/
theorem entry1_bias (c : Dev nD) :
    V7 m ρ c main_v102 = shapeCast S1x64 (m ((c : Thread nD τ).loc main_arg7)) shapeCasts_S64_S1x64 := by
  refine Eq.trans ?_ (congrArg (fun b => shapeCast S1x64 b shapeCasts_S64_S1x64) (exit0_bias m ρ c))
  show StableHlo.after hostOps1_2 (StableHlo.after hostOps1_1 (StableHlo.after hostOps1 (W4 m ρ c))) (Proc.devRef .tc main_v102) = _
  after_results_simp
  rfl

set_option maxHeartbeats 16000000 in
/-- The second stage's second operand is the scaled-Laplacian product of the first stage's result. -/
theorem entry1_lap (c : Dev nD) :
    V7 m ρ c main_v101 = Cert.ReferenceIdeal.ReadP.val_main_v52 (F := F)
      ((dat0 (V3 m ρ) c).arrAt 5 cfg0.N) (m ((c : Thread nD τ).loc main_arg1)) := by
  refine Eq.trans ?_ (congrArg₂ (Cert.ReferenceIdeal.ReadP.val_main_v52 (F := F)) (W4_arr m ρ c 5) (exit0_edges m ρ c))
  show StableHlo.after hostOps1_2 (StableHlo.after hostOps1_1 (StableHlo.after hostOps1 (W4 m ρ c))) (Proc.devRef .tc main_v101) = _
  after_results_simp
  rfl

end Cert.KernelIdeal.HostSide

end
-- ==== Proof.KernelValue.lean ====
/-
  The kernel program's result is the two-layer network `Cheb.twoLayers` of its arguments.

  The first dense stage leaves `Cheb.hidden` of the five arrays it finds, and it finds the input features, their
  scaled-Laplacian product, the first two weight matrices and the first bias reshaped to a row. The second leaves
  `Cheb.output` of the five arrays it finds: the first stage's result, ITS scaled-Laplacian product, the last two weight
  matrices and the second bias as a row. A bias vector reshaped to a 1 × 64 row and read along the row is the vector.
  The second stage's result array is the program's result.
-/
import proofs.«156247_j26568667693641_1_alg».proof.Proof.KernelBlocks0
import proofs.«156247_j26568667693641_1_alg».proof.Proof.KernelBlocks1
import proofs.«156247_j26568667693641_1_alg».proof.Proof.KernelHost
import proofs.«156247_j26568667693641_1_alg».proof.Proof.Laplacian
import Idealize.ShloMosaic.Lib.ValueLayout

set_option maxRecDepth 16384

noncomputable section

namespace Cert.KernelIdeal.ResultValue

open Cert.KernelIdeal Cert.KernelIdeal.Gen Cert.KernelIdeal.Body Cert.KernelIdeal.HostSide
open Idealize.ShloMosaic Idealize.ShloMosaic.TcCoe Idealize.ShloMosaic.ValueIdx Idealize.SL.Sem Cert.Cheb

variable (m : (ℓ : Loc nD τ sig) → Buf (Elt Ideal) ℓ) (ρ : Dev nD → PrngReg)

/-- A bias vector as a function of the output column. -/
abbrev biasVec (b : FVec Ideal S64 .f32) : Fin 64 → EReal := fun q => b (ix1 q)

/-- A bias vector reshaped to a 1 × 64 row, read along the row, is the vector. -/
theorem biasRow_reshape (b : FVec Ideal S64 .f32) :
    biasRow (shapeCast S1x64 b shapeCasts_S64_S1x64) = biasVec b :=
  funext fun q => shapeCast_a_1a_apply b shapeCasts_S64_S1x64 (0 : Fin 1) q

/-- THE FIRST STAGE'S RESULT: the first layer of the launch arguments. -/
theorem hidden_value (c : Dev nD) :
    (dat0 (F := Ideal) (V3 m ρ) c).arrAt 5 cfg0.N
      = hidden (m ((c : Thread nD τ).loc main_arg0))
          (lhat (m ((c : Thread nD τ).loc main_arg0)) (m ((c : Thread nD τ).loc main_arg1)))
          (m ((c : Thread nD τ).loc main_arg2)) (m ((c : Thread nD τ).loc main_arg3))
          (biasVec (m ((c : Thread nD τ).loc main_arg4))) := by
  refine (Blocks.final0 (V3 m ρ) c).trans ?_
  exact hidden_congr (entry0_features m ρ c) (entry0_lap m ρ c) (entry0_w0 m ρ c) (entry0_w1 m ρ c)
    ((congrArg biasRow (entry0_bias m ρ c)).trans (biasRow_reshape _))

/-- THE PROGRAM'S RESULT: the two-layer network of the launch arguments. -/
theorem result_value (c : Dev nD) :
    W8 m ρ c (Proc.devRef .tc main_v103)
      = twoLayers (m ((c : Thread nD τ).loc main_arg0)) (m ((c : Thread nD τ).loc main_arg1))
          (m ((c : Thread nD τ).loc main_arg2)) (m ((c : Thread nD τ).loc main_arg3))
          (biasVec (m ((c : Thread nD τ).loc main_arg4)))
          (m ((c : Thread nD τ).loc main_arg5)) (m ((c : Thread nD τ).loc main_arg6))
          (biasVec (m ((c : Thread nD τ).loc main_arg7))) := by
  refine (W8_arr m ρ c 5).trans ?_
  refine (Blocks.final1 (V7 m ρ) c).trans ?_
  unfold twoLayers
  exact output_congr ((entry1_features m ρ c).trans (hidden_value m ρ c))
    ((entry1_lap m ρ c).trans
      (congrArg (fun h => lhat h (m ((c : Thread nD τ).loc main_arg1))) (hidden_value m ρ c)))
    (entry1_w0 m ρ c) (entry1_w1 m ρ c)
    ((congrArg biasRow (entry1_bias m ρ c)).trans (biasRow_reshape _))

end Cert.KernelIdeal.ResultValue

end
-- ==== Proof.lean ====
/-
  The certificate of a two-layer Chebyshev graph convolution (order K = 2 each, a clamp at zero between them) over
  50000 nodes with 64 features and 800000 edges: a program whose two dense stages run on the TensorCore, against a
  reference that is host operations throughout.

  Both programs compute the scaled-Laplacian product of a feature array on the host, by the same operations in the same
  order; the proof names that function once (`Cheb.lhat`) and never opens it. A dense stage of the kernel program
  multiplies blocks of 2000 rows by two 64 × 64 weight matrices into zero accumulators (after narrowing to bf16, the
  identity on extended reals), adds the two products and the bias row, and in the first stage clamps at zero; the
  reference does the same with whole-array matrix products and broadcasts. Entry by entry both are
  `(∑ₖ h (p, k) · w0 (k, q) + ∑ₖ lx (p, k) · w1 (k, q)) + b q` with the sums grouped identically, so no law of
  arithmetic is needed, only that an entry reads its own row (so blocks of rows assemble into the whole array) and
  that the 25 blocks tile the 50000 rows. Hence both results are `Cheb.twoLayers` of the arguments; the precondition
  is never opened.

  The three frames: the two kernel programs' are the generated frame theorems; the reference's is its run with the
  result dropped. The kernel program was idealized without any rewrite, so there is nothing to preserve.
-/
import proofs.«156247_j26568667693641_1_alg».proof.Defs
import proofs.«156247_j26568667693641_1_alg».proof.Proof.Gen.Kernel
import proofs.«156247_j26568667693641_1_alg».proof.Proof.Gen.Kernel.Skeleton
import proofs.«156247_j26568667693641_1_alg».proof.Proof.Gen.Kernel.Launch
import proofs.«156247_j26568667693641_1_alg».proof.Proof.Gen.Kernel.Points
import proofs.«156247_j26568667693641_1_alg».proof.Proof.Gen.Kernel.Frame
import proofs.«156247_j26568667693641_1_alg».proof.Proof.Gen.KernelIdeal
import proofs.«156247_j26568667693641_1_alg».proof.Proof.Gen.KernelIdeal.Skeleton
import proofs.«156247_j26568667693641_1_alg».proof.Proof.Gen.KernelIdeal.Launch
import proofs.«156247_j26568667693641_1_alg».proof.Proof.Gen.KernelIdeal.Points
import proofs.«156247_j26568667693641_1_alg».proof.Proof.Gen.KernelIdeal.Frame
import proofs.«156247_j26568667693641_1_alg».proof.Proof.Gen.ReferenceIdeal
import proofs.«156247_j26568667693641_1_alg».proof.Proof.Gen.Pre_finite_inputs
import proofs.«156247_j26568667693641_1_alg».proof.Proof.RefRun
import proofs.«156247_j26568667693641_1_alg».proof.Proof.RefRead
import proofs.«156247_j26568667693641_1_alg».proof.Proof.Reference
import proofs.«156247_j26568667693641_1_alg».proof.Proof.KernelRun
import proofs.«156247_j26568667693641_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Run from memories that agree on the eight arguments, both programs end with the two-layer network of those
    arguments in their result arrays. -/
theorem algebraic : Cert.algebraic_KernelIdeal_ReferenceIdeal := by
  intro m ρ m' ρ' _ hagree
  refine ⟨fun c => Cert.KernelIdeal.Gen.W8 m ρ c (Proc.devRef .tc Cert.KernelIdeal.main_v103),
    Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v112_eq, Cert.ReferenceIdeal.RefValue.result_eq, a0, a1, a2, a3, a4, a5, a6, a7]
  exact (Cert.KernelIdeal.ResultValue.result_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
